-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x12x32x32x256 : Shape := ⟨5, ![16, 12, 32, 32, 256]⟩
abbrev S12x256 : Shape := ⟨2, ![12, 256]⟩
abbrev S_ : Shape := ⟨0, ![]⟩

class Facts : Prop where
  bcast_S_S16x12x32x32x256 : S_.BroadcastsInDim S16x12x32x32x256 (![] : Fin 0 → Fin S16x12x32x32x256.rank)
  reducesTo_S16x12x32x32x256_S_d0_1_2_3_4 : S16x12x32x32x256.ReducesTo [0, 1, 2, 3, 4] S_
  h_S_ : 0 < S_.numel
  bcast_S_S12x256 : S_.BroadcastsInDim S12x256 (![] : Fin 0 → Fin S12x256.rank)
  reducesTo_S12x256_S_d0_1 : S12x256.ReducesTo [0, 1] S_

variable [Facts]

def fn {F : FTy → Type} [FloatOps F] (main_arg0 : FVec F S16x12x32x32x256 .f32) (main_arg1 : FVec F S12x256 .f32) : IVec S_ 1 :=
  let main_v0 : FVec F S16x12x32x32x256 .f32 := Host.absf main_arg0
  let main_cst : FVec F S_ .f32 := constant S_ .f32 0x7F800000#32
  let main_v1 : FVec F S16x12x32x32x256 .f32 := broadcastInDim S16x12x32x32x256 ![] bcast_S_S16x12x32x32x256 main_cst
  let main_v2 : IVec S16x12x32x32x256 1 := cmpf .olt main_v0 main_v1
  let main_c : IVec S_ 1 := constantI S_ 1 1#1
  let main_v3 : IVec S_ 1 := (fun x v => Host.reduce IntOp.andi x v reducesTo_S16x12x32x32x256_S_d0_1_2_3_4 h_S_) main_v2 main_c
  let main_v4 : FVec F S12x256 .f32 := Host.absf main_arg1
  let main_cst_0 : FVec F S_ .f32 := constant S_ .f32 0x7F800000#32
  let main_v5 : FVec F S12x256 .f32 := broadcastInDim S12x256 ![] bcast_S_S12x256 main_cst_0
  let main_v6 : IVec S12x256 1 := cmpf .olt main_v4 main_v5
  let main_c_1 : IVec S_ 1 := constantI S_ 1 1#1
  let main_v7 : IVec S_ 1 := (fun x v => Host.reduce IntOp.andi x v reducesTo_S12x256_S_d0_1 h_S_) main_v6 main_c_1
  let main_v8 : IVec S_ 1 := andi main_v3 main_v7
  main_v8
-- ==== Kernel.lean ====
abbrev S16x12x32x32x256 : Shape := ⟨5, ![16, 12, 32, 32, 256]⟩
abbrev S12x256 : Shape := ⟨2, ![12, 256]⟩
abbrev S1x12x16x32x256 : Shape := ⟨5, ![1, 12, 16, 32, 256]⟩
abbrev S12x16x32x256 : Shape := ⟨4, ![12, 16, 32, 256]⟩
abbrev S12x1x1x256 : Shape := ⟨4, ![12, 1, 1, 256]⟩

abbrev nBuf : Space → Nat
  | .hbm => 3
  | .vmem => 5
  | .smem => 0
  | _ => 0

abbrev bufTy : (tb : Table) → Fin (tcTables nBuf tb) → BufTy
  | .hbm, ⟨0, _⟩ => ⟨S16x12x32x32x256, .f32⟩
  | .hbm, ⟨1, _⟩ => ⟨S12x256, .f32⟩
  | .hbm, ⟨2, _⟩ => ⟨S16x12x32x32x256, .f32⟩
  | .local _ .vmem, ⟨0, _⟩ => ⟨S1x12x16x32x256, .f32⟩
  | .local _ .vmem, ⟨1, _⟩ => ⟨S1x12x16x32x256, .f32⟩
  | .local _ .vmem, ⟨2, _⟩ => ⟨S12x256, .f32⟩
  | .local _ .vmem, ⟨3, _⟩ => ⟨S1x12x16x32x256, .f32⟩
  | .local _ .vmem, ⟨4, _⟩ => ⟨S1x12x16x32x256, .f32⟩
  | _, _ => ⟨S16x12x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x12x16x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x12x16x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x12x16x32x256_S1x12x16x32x256_0_0_0_0_0 : ∀ a, (![0, 0, 0, 0, 0] : Fin 5 → Nat) a + S1x12x16x32x256.size a ≤ S1x12x16x32x256.size a
  h_S1x12x16x32x256 : 0 < S1x12x16x32x256.numel
  shapeCasts_S1x12x16x32x256_S12x16x32x256 : S1x12x16x32x256.ShapeCasts S12x16x32x256
  inb_S12x256_S12x256_0_0 : ∀ a, (![0, 0] : Fin 2 → Nat) a + S12x256.size a ≤ S12x256.size a
  h_S12x256 : 0 < S12x256.numel
  shapeCasts_S12x256_S12x1x1x256 : S12x256.ShapeCasts S12x1x1x256
  broadcasts_S12x1x1x256_S12x16x32x256 : S12x1x1x256.Broadcasts S12x16x32x256
  shapeCasts_S12x16x32x256_S1x12x16x32x256 : S12x16x32x256.ShapeCasts S1x12x16x32x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12x16x32x256.size a ≤ S16x12x32x32x256.size a
  hwx0_0 : ∀ i : grid0.Coords, EltTy.bits .f32 = 32 ∨ (Rect.block (s := S16x12x32x32x256) S1x12x16x32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x256.size a ≤ S12x256.size a
  hwx0_1 : ∀ i : grid0.Coords, EltTy.bits .f32 = 32 ∨ (Rect.block (s := S12x256) S12x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x12x16x32x256.size a ≤ S16x12x32x32x256.size a
  hwx0_2 : ∀ i : grid0.Coords, EltTy.bits .f32 = 32 ∨ (Rect.block (s := S16x12x32x32x256) S1x12x16x32x256.size (cc0_transform_2 i) (hinb0_2 i)).WholeWords (EltTy.packing .f32)

variable [Facts₀]

abbrev win0_0 : Pipeline.Window sig grid0 :=
  Pipeline.Window.ofSpec (Memref.whole main_arg0) S1x12x16x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x12x16x32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x12x32x32x256 : Shape := ⟨5, ![16, 12, 32, 32, 256]⟩
abbrev S12x256 : Shape := ⟨2, ![12, 256]⟩
abbrev S_ : Shape := ⟨0, ![]⟩
abbrev S12x1x1x256 : Shape := ⟨4, ![12, 1, 1, 256]⟩
abbrev S1x12x1x1x256 : Shape := ⟨5, ![1, 12, 1, 1, 256]⟩

abbrev nBuf : Space → Nat
  | .hbm => 9
  | .vmem => 0
  | .smem => 0
  | _ => 0

abbrev bufTy : (tb : Table) → Fin (tcTables nBuf tb) → BufTy
  | .hbm, ⟨0, _⟩ => ⟨S16x12x32x32x256, .f32⟩
  | .hbm, ⟨1, _⟩ => ⟨S12x256, .f32⟩
  | .hbm, ⟨2, _⟩ => ⟨S_, .f32⟩
  | .hbm, ⟨3, _⟩ => ⟨S16x12x32x32x256, .f32⟩
  | .hbm, ⟨4, _⟩ => ⟨S16x12x32x32x256, .f32⟩
  | .hbm, ⟨5, _⟩ => ⟨S12x1x1x256, .f32⟩
  | .hbm, ⟨6, _⟩ => ⟨S1x12x1x1x256, .f32⟩
  | .hbm, ⟨7, _⟩ => ⟨S16x12x32x32x256, .f32⟩
  | .hbm, ⟨8, _⟩ => ⟨S16x12x32x32x256, .f32⟩
  | _, _ => ⟨S16x12x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S_S16x12x32x32x256 : S_.BroadcastsInDim S16x12x32x32x256 (![] : Fin 0 → Fin S16x12x32x32x256.rank)
  bcast_S12x256_S12x1x1x256_0_3 : S12x256.BroadcastsInDim S12x1x1x256 (![0, 3] : Fin 2 → Fin S12x1x1x256.rank)
  bcast_S12x1x1x256_S1x12x1x1x256_1_2_3_4 : S12x1x1x256.BroadcastsInDim S1x12x1x1x256 (![1, 2, 3, 4] : Fin 4 → Fin S1x12x1x1x256.rank)
  bcast_S1x12x1x1x256_S16x12x32x32x256_0_1_2_3_4 : S1x12x1x1x256.BroadcastsInDim S16x12x32x32x256 (![0, 1, 2, 3, 4] : Fin 5 → Fin S16x12x32x32x256.rank)

variable [Facts₀]

class Facts : Prop extends Facts₀ where

variable [Facts]
-- ==== Proof.ScaledPlusTable.lean ====
/-
  The function both programs compute, stated once and over no program.

  The activations `x` are indexed by (batch, time, row, column, channel) with extents 16 × 12 × 32 × 32 × 256; the
  positional table `pe` by (time, channel) with extents 12 × 256. The result has the activations' shape, and its entry at
  (b, t, h, w, s) is

      x[b, t, h, w, s] · 16 + pe[t, s]

  where 16 is the f32 word `0x41800000` (the square root of the channel count 256, exact in binary). The table entry that
  is added depends on the time and channel coordinates only: it is broadcast over batch, row and column.

  Nothing here uses a law of the extended reals: the two programs apply the same two operations, to the same operands, at
  every index, and differ only in how they cut the array up and how they spell the broadcast. So the function is stated
  for any float instance, and the literal is never evaluated.
-/
import Idealize.ShloMosaic.Lib.ValueIdx
import Idealize.ShloMosaic.PureOps.Ideal

noncomputable section

namespace Cert.ScaledPlusTable

open Idealize.ShloMosaic

/-- The activations' shape: batch × time × row × column × channel. -/
abbrev Act : Shape := ⟨5, ![16, 12, 32, 32, 256]⟩

/-- The positional table's shape: time × channel. -/
abbrev Tab : Shape := ⟨2, ![12, 256]⟩

/-- The table entry an activation index reads: its time coordinate (axis 1) and its channel coordinate (axis 4). -/
abbrev tabIdx (i : Act.Idx) : Tab.Idx := fun a => match a with
  | ⟨0, _⟩ => ⟨(i 1).val, (i 1).isLt⟩
  | ⟨1, _⟩ => ⟨(i 4).val, (i 4).isLt⟩

variable {F : FTy → Type} [FloatOps F]

/-- `x · 16 + pe`, the table broadcast over batch, row and column: entry `i` is the activation at `i` times the
    word `0x41800000`, plus the table at `i`'s time and channel. -/
def scaledPlusTable (x : Act.Idx → Elt F .f32) (pe : Tab.Idx → Elt F .f32) : Act.Idx → Elt F .f32 :=
  fun i => FloatOps.addf (FloatOps.mulf (x i) (FloatOps.ofBits .f32 0x41800000#32)) (pe (tabIdx i))

theorem scaledPlusTable_apply (x : Act.Idx → Elt F .f32) (pe : Tab.Idx → Elt F .f32) (i : Act.Idx) :
    scaledPlusTable x pe i = FloatOps.addf (FloatOps.mulf (x i) (FloatOps.ofBits .f32 0x41800000#32)) (pe (tabIdx i)) := rfl

end Cert.ScaledPlusTable

end
-- ==== Proof.ReferenceRead.lean ====
/-
  The reference's result, read index by index, is `x · 16 + pe` with the table broadcast.

  The reference multiplies the activations by a scalar 16 broadcast to the full shape, and adds the table after three
  broadcasts in a row: [12, 256] → [12, 1, 1, 256] (time and channel kept, two unit axes put between them), then
  [1, 12, 1, 1, 256] (a unit batch axis in front), then the full [16, 12, 32, 32, 256] (every unit axis repeated). Reading
  the three backwards from a full index (b, t, h, w, s) gives (0, t, 0, 0, s), then (t, 0, 0, s), then (t, s): the table's
  entry at the index's time and channel, which is what the specification adds.
-/
import proofs.«122171_j41188736369188_2_alg».proof.Proof.Gen.ReferenceIdeal.Read
import proofs.«122171_j41188736369188_2_alg».proof.Proof.ScaledPlusTable

noncomputable section

namespace Cert.ReferenceIdeal.RefValue

open Cert.ReferenceIdeal Cert.ReferenceIdeal.Read Idealize.ShloMosaic Cert.ScaledPlusTable

variable {F : FTy → Type} [FloatOps F]

/-- The three broadcasts of the table, read backwards from a full index, land on its time and channel coordinates. -/
theorem table_index (i : S16x12x32x32x256.Idx) : idx_main_v2 (idx_main_v3 (idx_main_v4 i)) = tabIdx i :=
  funext fun a => Fin.ext (by match a with | ⟨0, _⟩ => rfl | ⟨1, _⟩ => rfl)

/-- The reference's last stage is the specification: at every index the activation times the word for 16, plus the
    table entry at the index's time and channel. -/
theorem result_eq (x : S16x12x32x32x256.Idx → Elt F .f32) (pe : S12x256.Idx → Elt F .f32) :
    val_main_v5 (F := F) x pe = scaledPlusTable x pe := by
  funext i
  rw [val_main_v5_apply, val_main_v1_apply, val_main_v0_apply, val_main_cst_apply, val_main_v4_apply,
    val_main_v3_apply, val_main_v2_apply, table_index, scaledPlusTable_apply]

end Cert.ReferenceIdeal.RefValue

end
-- ==== Proof.KernelTiles.lean ====
/-
  The kernel's result array is `x · 16 + pe` with the table broadcast.

  The kernel runs on a grid of 16 × 2 points (batch, half of the rows). At point (b, k) it is handed the activations'
  block [1, 12, 16, 32, 256] at block index (b, 0, k, 0, 0) — batch b, every time step, rows 16k … 16k + 15, every
  column and channel — and the whole table (block index (0, 0) at every point), and it writes the output's block at the
  same block index (b, 0, k, 0, 0). Inside the body the table [12, 256] is re-laid as [12, 1, 1, 256] and broadcast over
  the block's rows and columns, so the block entry at (0, t, h, w, s) is

      xblock[0, t, h, w, s] · 16 + pe[t, s].

  Two facts turn this into a statement about the whole array. First, an entry of a block sits in its array at block
  index × block size + its own coordinate on every axis; since the activations' block and the output's block have the
  same block index, entry (0, t, h, w, s) of both is array entry (b, t, 16k + h, w, s), and its time and channel
  coordinates are t and s: so what point (b, k) writes is the block of the specification at that point. Second, every array
  index (b, t, r, w, s) lies in the block of exactly the point (b, r / 16), so the 32 blocks cover the array, and the array
  ends holding the specification everywhere.
-/
import proofs.«122171_j41188736369188_2_alg».proof.Proof.Gen.KernelIdeal.Value
import proofs.«122171_j41188736369188_2_alg».proof.Proof.ScaledPlusTable

noncomputable section

namespace Cert.KernelIdeal.TileValue

open Cert.KernelIdeal Cert.KernelIdeal.Gen Idealize.ShloMosaic Idealize.ShloMosaic.TcCoe Idealize.SL.Sem
open Idealize.ShloMosaic.Pipeline (Dat)
open Cert.ScaledPlusTable

variable {F : FTy → Type} [FloatOps F]
variable (m : (ℓ : Loc nD τ sig) → Buf (Elt F) ℓ) (ρ : Dev nD → PrngReg)

/-! ## What the body leaves in the output block -/

theorem zeros5 : (![0, 0, 0, 0, 0] : Fin 5 → Nat) = fun _ => 0 := funext fun a => by fin_cases a <;> rfl
theorem zeros2 : (![0, 0] : Fin 2 → Nat) = fun _ => 0 := funext fun a => by fin_cases a <;> rfl

/-- The block's leading axis has extent one, so reading an activation block "at batch 0 and the other four coordinates
    of `y`" is reading it at `y`. -/
theorem unit_batch (y : S1x12x16x32x256.Idx) : Value.ix2_0 y = y := by
  have h0 : (y 0).val < 1 := (y 0).isLt
  funext a; apply Fin.ext
  match a with
  | ⟨0, _⟩ => show 0 = (y 0).val; omega
  | ⟨1, _⟩ => rfl
  | ⟨2, _⟩ => rfl
  | ⟨3, _⟩ => rfl
  | ⟨4, _⟩ => rfl

/-- From an activation block `P0` and the table `P1`, both loaded whole, the body's one store leaves at block index
    `y = (0, t, h, w, s)` the value `P0 y · 16 + P1 (t, s)`. -/
theorem block_value (P0 : Vec F S1x12x16x32x256 .f32) (P1 : Vec F S12x256 .f32) (y : S1x12x16x32x256.Idx) :
    out0_2 P0 P1 y = FloatOps.addf (FloatOps.mulf (P0 y) (FloatOps.ofBits .f32 0x41800000#32)) (P1 (Value.ix2_1 y)) := by
  unfold out0_2
  refine (Value.canon2_eq (View.ld P0 r0_0) (View.ld P1 r0_1) y).trans ?_
  rw [View.ld_unit_zero (S := S1x12x16x32x256) zeros5, View.ld_unit_zero (S := S12x256) zeros2]
  show FloatOps.addf (FloatOps.mulf (P0 (Value.ix2_0 y)) (FloatOps.ofBits .f32 0x41800000#32)) (P1 (Value.ix2_1 y)) = _
  rw [unit_batch]

/-! ## Where the blocks sit -/

/-- The printed index maps, decided over the 32 grid points: the activations' block index is the output's on every axis;
    the table's block index is (0, 0); the output's block index is zero on the time, column and channel axes. -/
theorem index_facts : ∀ t : Fin cfg0.N,
    win0_0.index t (0 : Fin 5) = win0_2.index t (0 : Fin 5)
    ∧ win0_0.index t (1 : Fin 5) = win0_2.index t (1 : Fin 5)
    ∧ win0_0.index t (2 : Fin 5) = win0_2.index t (2 : Fin 5)
    ∧ win0_0.index t (3 : Fin 5) = win0_2.index t (3 : Fin 5)
    ∧ win0_0.index t (4 : Fin 5) = win0_2.index t (4 : Fin 5)
    ∧ win0_1.index t (0 : Fin 2) = 0
    ∧ win0_1.index t (1 : Fin 2) = 0
    ∧ win0_2.index t (1 : Fin 5) = 0
    ∧ win0_2.index t (3 : Fin 5) = 0
    ∧ win0_2.index t (4 : Fin 5) = 0 :=
  (by decide +kernel : ∀ t : Fin grid0.N, _)

/-- Every pair (batch, half of the rows) is some grid point's output block index. -/
theorem index_onto : ∀ (b : Fin 16) (k : Fin 2), ∃ t : Fin cfg0.N, win0_2.index t = ![b.val, 0, k.val, 0, 0] :=
  (by decide +kernel : ∀ (b : Fin 16) (k : Fin 2), ∃ t : Fin grid0.N, win0_2.index t = ![b.val, 0, k.val, 0, 0])

/-- WHAT POINT `t` WRITES BACK is block `t` of the specification of the argument arrays. -/
theorem flushed_block (c : Dev nD) (t : Fin cfg0.N) :
    (dats m 0 c).flushed 2 t
      = ((cfg0.win 2).blk t).view.read (Elt F) (scaledPlusTable (V m c main_arg0) (V m c main_arg1)) := by
  rw [Value.flushed2]
  obtain ⟨a0, a1, a2, a3, a4, p0, p1, z1, z3, z4⟩ := index_facts t
  funext j
  show out0_2 (iblk m c 0 t) (iblk m c 1 t) j
    = scaledPlusTable (V m c main_arg0) (V m c main_arg1) (((cfg0.win 2).blk t).view.emb j)
  refine (block_value (F := F) (iblk m c 0 t) (iblk m c 1 t) j).trans ?_
  rw [scaledPlusTable_apply]
  show FloatOps.addf (FloatOps.mulf (V m c main_arg0 (((cfg0.win 0).blk t).view.emb j)) (FloatOps.ofBits .f32 0x41800000#32))
      (V m c main_arg1 (((cfg0.win 1).blk t).view.emb (Value.ix2_1 j))) = _
  have hj0 : (j 0).val < 1 := (j 0).isLt
  have hj1 : (j 1).val < 12 := (j 1).isLt
  have hj2 : (j 2).val < 16 := (j 2).isLt
  have hj3 : (j 3).val < 32 := (j 3).isLt
  have hj4 : (j 4).val < 256 := (j 4).isLt
  -- the activations' block and the output's block sit at the same place in their arrays
  have h0 : ((cfg0.win 0).blk t).view.emb j = ((cfg0.win 2).blk t).view.emb j := by
    funext a; apply Fin.ext
    match a with
    | ⟨0, _⟩ => show win0_0.index t (0 : Fin 5) * 1 + 1 * (j 0).val = win0_2.index t (0 : Fin 5) * 1 + 1 * (j 0).val; omega
    | ⟨1, _⟩ => show win0_0.index t (1 : Fin 5) * 12 + 1 * (j 1).val = win0_2.index t (1 : Fin 5) * 12 + 1 * (j 1).val; omega
    | ⟨2, _⟩ => show win0_0.index t (2 : Fin 5) * 16 + 1 * (j 2).val = win0_2.index t (2 : Fin 5) * 16 + 1 * (j 2).val; omega
    | ⟨3, _⟩ => show win0_0.index t (3 : Fin 5) * 32 + 1 * (j 3).val = win0_2.index t (3 : Fin 5) * 32 + 1 * (j 3).val; omega
    | ⟨4, _⟩ => show win0_0.index t (4 : Fin 5) * 256 + 1 * (j 4).val = win0_2.index t (4 : Fin 5) * 256 + 1 * (j 4).val; omega
  -- the table entry the body adds is the one at the array index's time and channel
  have h1 : ((cfg0.win 1).blk t).view.emb (Value.ix2_1 j) = tabIdx (((cfg0.win 2).blk t).view.emb j) := by
    funext a; apply Fin.ext
    match a with
    | ⟨0, _⟩ => show win0_1.index t (0 : Fin 2) * 12 + 1 * (j 1).val = win0_2.index t (1 : Fin 5) * 12 + 1 * (j 1).val; omega
    | ⟨1, _⟩ => show win0_1.index t (1 : Fin 2) * 256 + 1 * (j 4).val = win0_2.index t (4 : Fin 5) * 256 + 1 * (j 4).val; omega
  rw [h0, h1]

/-- An array index is in point `t`'s output block iff each coordinate is in the block's range on its axis. -/
theorem mem_block (t : Fin cfg0.N) (i : S16x12x32x32x256.Idx) :
    i ∈ ((cfg0.win 2).blk t).view.set ↔ ∀ a : Fin 5, win0_2.index t a * S1x12x16x32x256.size a ≤ (i a).val
      ∧ (i a).val < win0_2.index t a * S1x12x16x32x256.size a + S1x12x16x32x256.size a := by
  show i ∈ ((View.whole main_v0).slice (win0_2.rect t)).set ↔ _
  rw [View.set_slice_whole, Rect.mem_set_unit]
  exact Iff.rfl

/-- THE BLOCKS COVER THE ARRAY: index (b, t, r, w, s) is in the block of the point whose block index is
    (b, 0, r / 16, 0, 0). -/
theorem blocks_cover (i : S16x12x32x32x256.Idx) :
    ∃ t : Fin cfg0.N, (cfg0.win 2).flush t = true ∧ i ∈ ((cfg0.win 2).blk t).view.set := by
  have hi0 : (i 0).val < 16 := (i 0).isLt
  have hi1 : (i 1).val < 12 := (i 1).isLt
  have hi2 : (i 2).val < 32 := (i 2).isLt
  have hi3 : (i 3).val < 32 := (i 3).isLt
  have hi4 : (i 4).val < 256 := (i 4).isLt
  obtain ⟨t, ht⟩ := index_onto ⟨(i 0).val, hi0⟩ ⟨(i 2).val / 16, by omega⟩
  have q0 : win0_2.index t (0 : Fin 5) = (i 0).val := congrFun ht 0
  have q1 : win0_2.index t (1 : Fin 5) = 0 := congrFun ht 1
  have q2 : win0_2.index t (2 : Fin 5) = (i 2).val / 16 := congrFun ht 2
  have q3 : win0_2.index t (3 : Fin 5) = 0 := congrFun ht 3
  have q4 : win0_2.index t (4 : Fin 5) = 0 := congrFun ht 4
  refine ⟨t, flush0_2 t, ?_⟩
  rw [mem_block]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 12 ≤ (i 1).val ∧ (i 1).val < win0_2.index t (1 : Fin 5) * 12 + 12; omega
  | ⟨2, _⟩ => show win0_2.index t (2 : Fin 5) * 16 ≤ (i 2).val ∧ (i 2).val < win0_2.index t (2 : Fin 5) * 16 + 16; omega
  | ⟨3, _⟩ => show win0_2.index t (3 : Fin 5) * 32 ≤ (i 3).val ∧ (i 3).val < win0_2.index t (3 : Fin 5) * 32 + 32; omega
  | ⟨4, _⟩ => show win0_2.index t (4 : Fin 5) * 256 ≤ (i 4).val ∧ (i 4).val < win0_2.index t (4 : Fin 5) * 256 + 256; omega

/-! ## The array after the run -/

/-- THE OUTPUT ARRAY after the run is the specification of the argument arrays. -/
theorem final (c : Dev nD) :
    (dats m 0 c).arrAt 2 cfg0.N
      = scaledPlusTable (m ((c : Thread nD τ).loc main_arg0)) (m ((c : Thread nD τ).loc main_arg1)) :=
  (dats m 0 c).arrAt_eq_of_cover 2 (scaledPlusTable (V m c main_arg0) (V m c main_arg1))
    (fun t _ => flushed_block m c t) blocks_cover

/-- The kernel's run: every weakly fair execution ends with the result array at the specification of the arguments,
    and the arguments unchanged. -/
theorem run : θ_run defs (onTc (τ := τ) (main (F := F))) ⟨m, fun _ => 0, ρ⟩ fun r => ∀ c : Dev nD,
      r.2.mem ((c : Thread nD τ).loc main_v0)
        = scaledPlusTable (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.TileValue

end
-- ==== Proof.lean ====
/-
  Scaling activations and adding a positional table: a tiled kernel against its plain reference, over the extended reals.

  Both programs take activations `x` of shape [16, 12, 32, 32, 256] (batch, time, row, column, channel) and a table `pe`
  of shape [12, 256] (time, channel), and return, at every index (b, t, h, w, s),

      x[b, t, h, w, s] · 16 + pe[t, s],

  the factor 16 being the same f32 word `0x41800000` in both. The reference does it in one multiplication and one addition
  over the whole arrays, the table broadcast to the full shape first. The kernel cuts the array into 32 blocks — one per
  batch entry and half of the rows —, and in each block multiplies, broadcasts the table over the block's rows and
  columns, adds, and writes the block back.

  The two results are equal entry by entry with no law of arithmetic involved: the same product and the same sum of the
  same operands at every index. What there is to prove is bookkeeping of indices. On the reference's side
  (Proof/ReferenceRead.lean): three broadcasts in a row read the table at the index's time and channel. On the kernel's
  side (Proof/KernelTiles.lean): an entry of a block sits in the array at block index × block size + its coordinate, the
  input and output blocks of a grid point share their block index, so each point writes the block of `x · 16 + pe` it is
  responsible for; and the 32 blocks cover the array. Both sides meet at one function, Proof/ScaledPlusTable.lean. Since
  nothing is cancelled or distributed, infinite entries are no exception and the finiteness of the inputs is never used.

  The three frames (each program terminates without a fault and leaves its arguments unchanged) are the generated frame
  runs for the two kernel programs, and for the reference its generated run with the result dropped. The kernel's
  idealization rewrote nothing, so there is nothing to preserve.
-/
import proofs.«122171_j41188736369188_2_alg».proof.Defs
import proofs.«122171_j41188736369188_2_alg».proof.Proof.Gen.Kernel
import proofs.«122171_j41188736369188_2_alg».proof.Proof.Gen.Kernel.Skeleton
import proofs.«122171_j41188736369188_2_alg».proof.Proof.Gen.Kernel.Launch
import proofs.«122171_j41188736369188_2_alg».proof.Proof.Gen.Kernel.Points
import proofs.«122171_j41188736369188_2_alg».proof.Proof.Gen.Kernel.Frame
import proofs.«122171_j41188736369188_2_alg».proof.Proof.Gen.KernelIdeal
import proofs.«122171_j41188736369188_2_alg».proof.Proof.Gen.KernelIdeal.Skeleton
import proofs.«122171_j41188736369188_2_alg».proof.Proof.Gen.KernelIdeal.Launch
import proofs.«122171_j41188736369188_2_alg».proof.Proof.Gen.KernelIdeal.Points
import proofs.«122171_j41188736369188_2_alg».proof.Proof.Gen.KernelIdeal.Frame
import proofs.«122171_j41188736369188_2_alg».proof.Proof.Gen.ReferenceIdeal
import proofs.«122171_j41188736369188_2_alg».proof.Proof.Gen.Pre_finite_inputs
import proofs.«122171_j41188736369188_2_alg».proof.Proof.Gen.KernelIdeal.Value
import proofs.«122171_j41188736369188_2_alg».proof.Proof.Gen.ReferenceIdeal.Run
import proofs.«122171_j41188736369188_2_alg».proof.Proof.Gen.ReferenceIdeal.Read
import proofs.«122171_j41188736369188_2_alg».proof.Proof.ScaledPlusTable
import proofs.«122171_j41188736369188_2_alg».proof.Proof.ReferenceRead
import proofs.«122171_j41188736369188_2_alg».proof.Proof.KernelTiles
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on `x` and `pe`, the kernel's result array ends at `x · 16 + pe` (the blocks' values and
    their cover) and the reference's at the same function (its three broadcasts read back), entry by entry. -/
theorem algebraic : Cert.algebraic_KernelIdeal_ReferenceIdeal := by
  intro m ρ m' ρ' _ hagree
  refine ⟨_, Cert.KernelIdeal.TileValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v5_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
